-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x4096x3 : Shape := ⟨3, ![8, 4096, 3]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn {F : FTy → Type} [FloatOps F] (main_arg0 : FVec F S8x8192x3 .f32) (main_arg1 : FVec F S8x4096x3 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x8192x3 : Shape := ⟨3, ![8, 8192, 3]⟩
abbrev S8x4096x3 : Shape := ⟨3, ![8, 4096, 3]⟩
abbrev S8x3x8192 : Shape := ⟨3, ![8, 3, 8192]⟩
abbrev S8x1x4096 : Shape := ⟨3, ![8, 1, 4096]⟩
abbrev S1x4096x3 : Shape := ⟨3, ![1, 4096, 3]⟩
abbrev S1x3x512 : Shape := ⟨3, ![1, 3, 512]⟩
abbrev S1x1x4096 : Shape := ⟨3, ![1, 1, 4096]⟩
abbrev S4096 : Shape := ⟨1, ![4096]⟩
abbrev S4096x3 : Shape := ⟨2, ![4096, 3]⟩
abbrev S3x512 : Shape := ⟨2, ![3, 512]⟩
abbrev S4096x1 : Shape := ⟨2, ![4096, 1]⟩
abbrev S512 : Shape := ⟨1, ![512]⟩
abbrev S1x512 : Shape := ⟨2, ![1, 512]⟩
abbrev S4096x512 : Shape := ⟨2, ![4096, 512]⟩
abbrev S8x4096 : Shape := ⟨2, ![8, 4096]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x8192x3, .f32⟩
  | .hbm, ⟨1, _⟩ => ⟨S8x4096x3, .f32⟩
  | .hbm, ⟨2, _⟩ => ⟨S8x3x8192, .f32⟩
  | .hbm, ⟨3, _⟩ => ⟨S8x1x4096, .f32⟩
  | .hbm, ⟨4, _⟩ => ⟨S8x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x512, .f32⟩
  | .local _ .vmem, ⟨3, _⟩ => ⟨S1x3x512, .f32⟩
  | .local _ .vmem, ⟨4, _⟩ => ⟨S1x1x4096, .f32⟩
  | .local _ .vmem, ⟨5, _⟩ => ⟨S1x1x4096, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S8x8192x3_S8x3x8192_0_2_1 : S8x8192x3.Transposes [0, 2, 1] S8x3x8192
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  reduces_S4096x3_S4096 : S4096x3.Reduces [1] S4096
  shapeCasts_S4096_S4096x1 : S4096.ShapeCasts S4096x1
  reduces_S3x512_S512 : S3x512.Reduces [0] S512
  shapeCasts_S512_S1x512 : S512.ShapeCasts S1x512
  slices_S4096x3_o0_0_S4096x1 : S4096x3.Slices ![0, 0] S4096x1
  slices_S3x512_o0_0_S1x512 : S3x512.Slices ![0, 0] S1x512
  broadcasts_S4096x1_S4096x512 : S4096x1.Broadcasts S4096x512
  broadcasts_S1x512_S4096x512 : S1x512.Broadcasts S4096x512
  slices_S4096x3_o0_1_S4096x1 : S4096x3.Slices ![0, 1] S4096x1
  slices_S3x512_o1_0_S1x512 : S3x512.Slices ![1, 0] S1x512
  slices_S4096x3_o0_2_S4096x1 : S4096x3.Slices ![0, 2] S4096x1
  slices_S3x512_o2_0_S1x512 : S3x512.Slices ![2, 0] S1x512
  reduces_S4096x512_S4096 : S4096x512.Reduces [1] S4096
  shapeCasts_S8x1x4096_S8x4096 : S8x1x4096.ShapeCasts S8x4096
  reducesTo_S8x4096_S_d0_1 : S8x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S8x3x8192.size a
  hwx0_1 : ∀ i : grid0.Coords, EltTy.bits .f32 = 32 ∨ (Rect.block (s := S8x3x8192) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)

variable [Facts₀]

abbrev win0_0 : Pipeline.Window sig grid0 :=
  Pipeline.Window.ofSpec (Memref.whole main_arg1) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x3 : Shape := ⟨3, ![8, 8192, 3]⟩
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x8192 : Shape := ⟨2, ![8, 8192]⟩
abbrev S8x8192x1 : Shape := ⟨3, ![8, 8192, 1]⟩
abbrev S8x4096x8192 : Shape := ⟨3, ![8, 4096, 8192]⟩
abbrev S8x1x8192 : Shape := ⟨3, ![8, 1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x8192x3, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S8x4096x8192, .f32⟩
  | .hbm, ⟨11, _⟩ => ⟨S8x1x8192, .f32⟩
  | .hbm, ⟨12, _⟩ => ⟨S8x4096x8192, .f32⟩
  | .hbm, ⟨13, _⟩ => ⟨S8x4096x8192, .f32⟩
  | .hbm, ⟨14, _⟩ => ⟨S8x4096x8192, .f32⟩
  | .hbm, ⟨15, _⟩ => ⟨S_, .f32⟩
  | .hbm, ⟨16, _⟩ => ⟨S8x4096x8192, .f32⟩
  | .hbm, ⟨17, _⟩ => ⟨S8x4096x8192, .f32⟩
  | .hbm, ⟨18, _⟩ => ⟨S8x4096x8192, .f32⟩
  | .hbm, ⟨19, _⟩ => ⟨S_, .f32⟩
  | .hbm, ⟨20, _⟩ => ⟨S8x4096x8192, .f32⟩
  | .hbm, ⟨21, _⟩ => ⟨S8x4096x8192, .f32⟩
  | .hbm, ⟨22, _⟩ => ⟨S8x4096x8192, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  reducesTo_S8x8192x3_S8x8192_d2 : S8x8192x3.ReducesTo [2] S8x8192
  bcast_S8x8192_S8x8192x1_0_1 : S8x8192.BroadcastsInDim S8x8192x1 (![0, 1] : Fin 2 → Fin S8x8192x1.rank)
  transposes_S8x8192x1_S8x1x8192_0_2_1 : S8x8192x1.Transposes [0, 2, 1] S8x1x8192
  bcast_S8x4096x1_S8x4096x8192_0_1_2 : S8x4096x1.BroadcastsInDim S8x4096x8192 (![0, 1, 2] : Fin 3 → Fin S8x4096x8192.rank)
  bcast_S8x1x8192_S8x4096x8192_0_1_2 : S8x1x8192.BroadcastsInDim S8x4096x8192 (![0, 1, 2] : Fin 3 → Fin S8x4096x8192.rank)
  bcast_S_S8x4096x8192 : S_.BroadcastsInDim S8x4096x8192 (![] : Fin 0 → Fin S8x4096x8192.rank)
  reducesTo_S8x4096x8192_S8x4096_d2 : S8x4096x8192.ReducesTo [2] S8x4096
  reducesTo_S8x4096_S_d0_1 : S8x4096.ReducesTo [0, 1] S_
  dot_S8x4096x3_S8x8192x3_S8x4096x8192_2_2_1_1_0_0_wf : DotDims.WF S8x4096x3 S8x8192x3 S8x4096x8192 [2] [2] [1] [1] [0] [0]

variable [Facts₀]

def dot_S8x4096x3_S8x8192x3_S8x4096x8192_2_2_1_1_0_0 : DotDims S8x4096x3 S8x8192x3 S8x4096x8192 where
  lhsContracting := [2]
  rhsContracting := [2]
  lhsNonContracting := [1]
  rhsNonContracting := [1]
  lhsBatch := [0]
  rhsBatch := [0]
  wf := dot_S8x4096x3_S8x8192x3_S8x4096x8192_2_2_1_1_0_0_wf

class Facts : Prop extends Facts₀ where

variable [Facts]
-- ==== Proof.LibClipRoot.lean ====
/-
  Clipping an extended real below at zero and taking its square root, against minima.

  The square root of the extended reals (√⊤ = ⊤) is monotone on the non-negative ones, so clipping at zero and then
  rooting is monotone everywhere and fixes +∞; a monotone map that fixes the top commutes with the minimum of any
  finite family.  A fold of the minimum from +∞ is the family's infimum, and the 32-bit pattern 0x7F800000 is +∞.
-/
import Idealize.ShloMosaic.PureOps.Ideal
import Idealize.ShloMosaic.PureOps.Ideal.Laws

noncomputable section

namespace Cert.Nearest

open Idealize.ShloMosaic

/-! ## Clipping at zero and taking the root -/

/-- Clip below at zero, then take the square root. -/
def root (x : EReal) : EReal := Ideal.sqrt (max x 0)

/-- The square root is monotone on the non-negative extended reals. -/
theorem sqrt_le_sqrt {a b : EReal} (ha : 0 ≤ a) (hab : a ≤ b) : Ideal.sqrt a ≤ Ideal.sqrt b := by
  induction a using EReal.rec with
  | bot => exact absurd ha (by simp)
  | top =>
    have hb : b = ⊤ := top_le_iff.mp hab
    subst hb; exact le_rfl
  | coe r =>
    induction b using EReal.rec with
    | bot => exact absurd hab (by simp)
    | top => rw [Ideal.sqrt_top]; exact le_top
    | coe s =>
      have hr : 0 ≤ r := by exact_mod_cast ha
      have hrs : r ≤ s := by exact_mod_cast hab
      have hs : 0 ≤ s := hr.trans hrs
      rw [Ideal.sqrt_coe, Ideal.sqrt_coe, if_neg (not_lt.mpr hr), if_neg (not_lt.mpr hs)]
      exact_mod_cast Real.sqrt_le_sqrt hrs

/-- Clipping and rooting is monotone. -/
theorem root_mono : Monotone root := fun _ _ h =>
  sqrt_le_sqrt (le_max_right _ _) (max_le_max h le_rfl)

/-- Clipping and rooting fixes +∞. -/
theorem root_top : root ⊤ = ⊤ := by
  unfold root
  rw [max_eq_left le_top, Ideal.sqrt_top]

/-- Clipping and rooting commutes with the minimum of a finite family. -/
theorem root_inf {ι : Type} (s : Finset ι) (f : ι → EReal) : root (s.inf f) = s.inf (root ∘ f) :=
  Finset.apply_inf_eq_inf_comp_of_linearOrder root root_mono root_top

/-- A fold of the minimum from +∞ is the infimum of the family. -/
theorem fold_min_top {ι : Type} (s : Finset ι) (f : ι → EReal) : s.fold min ⊤ f = s.inf f := rfl

/-- The pattern 0x7F800000 is +∞. -/
theorem ofBits_inf : Ideal.ofBits .f32 0x7F800000#32 = (⊤ : EReal) := by
  simp [Ideal.ofBits, Ideal.ieee]

end Cert.Nearest

end
-- ==== Proof.NearestSpec.lean ====
/-
  The distance from each point of one cloud to the nearest point of another, as a function of the two clouds.

  For a batch b, a point m of the cloud `pt` and a point n of the cloud `cp`, the squared distance is written in the
  expanded form |p|² + |c|² − 2·⟨p, c⟩ over the three coordinates.  The result at (b, m) is the square root of the
  least squared distance over all n, clipped below at zero.  Clipping at zero and taking the root is monotone on the
  extended reals and fixes +∞, so it commutes with the minimum over any finite family; and the minimum over all 8192
  points n is the minimum over 16 consecutive tiles of 512 points of the tiles' minima, which is how a running minimum
  carried from tile to tile reaches it.
-/
import proofs.«118119_j20409684590743_2_alg».proof.Proof.LibClipRoot
import Idealize.ShloMosaic.Lib.ValueIdx
import Idealize.ShloMosaic.PureOps.Ideal
import Idealize.ShloMosaic.PureOps.Ideal.Laws

noncomputable section

open scoped BigOperators

namespace Cert.Nearest

open Idealize.ShloMosaic Idealize.ShloMosaic.ValueIdx

/-! ## The squared distances and their minima -/

/-- The two clouds: `cp` has 8192 points per batch, `pt` has 4096, each point three coordinates. -/
abbrev Cloud (n : ℕ) : Type := (⟨3, ![8, n, 3]⟩ : Shape).Idx → EReal

/-- The factor of the cross term. -/
def two : EReal := Ideal.ofBits .f32 0x40000000#32

/-- The squared distance in expanded form: |p|² + |c|² − 2·⟨p, c⟩. -/
def sqDist (cp : Cloud 8192) (pt : Cloud 4096) (b : Fin 8) (m : Fin 4096) (n : Fin 8192) : EReal :=
  ((∑ d : Fin 3, pt (ix3 b m d) * pt (ix3 b m d)) + (∑ d : Fin 3, cp (ix3 b n d) * cp (ix3 b n d)))
    - two * (∑ d : Fin 3, pt (ix3 b m d) * cp (ix3 b n d))

/-- The distance from point m of batch b to the nearest of the 8192 points. -/
def nearest (cp : Cloud 8192) (pt : Cloud 4096) (b : Fin 8) (m : Fin 4096) : EReal :=
  root ((Finset.univ : Finset (Fin 8192)).inf (sqDist cp pt b m))

/-- Point j of tile k. -/
def col (k : Fin 16) (j : Fin 512) : Fin 8192 := ⟨512 * k.val + j.val, by omega⟩

/-- The least squared distance within tile k. -/
def tileMin (cp : Cloud 8192) (pt : Cloud 4096) (b : Fin 8) (m : Fin 4096) (k : Fin 16) : EReal :=
  (Finset.univ : Finset (Fin 512)).inf (fun j => sqDist cp pt b m (col k j))

/-- The least squared distance over tiles 0 … k. -/
def running (cp : Cloud 8192) (pt : Cloud 4096) (b : Fin 8) (m : Fin 4096) (k : ℕ) : EReal :=
  (Finset.univ.filter (fun t : Fin 16 => t.val ≤ k)).inf (tileMin cp pt b m)

variable (cp : Cloud 8192) (pt : Cloud 4096) (b : Fin 8) (m : Fin 4096)

/-- After the first tile the running minimum, started from +∞, is that tile's minimum. -/
theorem running_zero : running cp pt b m 0 = min ⊤ (tileMin cp pt b m 0) := by
  unfold running
  have h : (Finset.univ.filter fun t : Fin 16 => t.val ≤ 0) = {0} := by
    ext t
    simp only [Finset.mem_filter, Finset.mem_univ, true_and, Finset.mem_singleton, Fin.ext_iff, Fin.val_zero]
    omega
  rw [h, Finset.inf_singleton, min_eq_right le_top]

/-- One more tile: the running minimum takes in the new tile's minimum. -/
theorem running_succ (k : ℕ) (hk : k + 1 < 16) :
    running cp pt b m (k + 1) = min (running cp pt b m k) (tileMin cp pt b m ⟨k + 1, hk⟩) := by
  unfold running
  have h : (Finset.univ.filter fun t : Fin 16 => t.val ≤ k + 1)
      = insert (⟨k + 1, hk⟩ : Fin 16) (Finset.univ.filter fun t : Fin 16 => t.val ≤ k) := by
    ext t
    simp only [Finset.mem_filter, Finset.mem_univ, true_and, Finset.mem_insert, Fin.ext_iff]
    omega
  rw [h, Finset.inf_insert, inf_comm]

/-- After the last tile the running minimum is the minimum over all 8192 points. -/
theorem running_last : running cp pt b m 15 = (Finset.univ : Finset (Fin 8192)).inf (sqDist cp pt b m) := by
  unfold running
  have h : (Finset.univ.filter fun t : Fin 16 => t.val ≤ 15) = Finset.univ := by
    ext t
    simp only [Finset.mem_filter, Finset.mem_univ, true_and, iff_true]
    omega
  have hsurj : Function.Surjective (fun p : Fin 16 × Fin 512 => col p.1 p.2) := fun n =>
    ⟨(⟨n.val / 512, by omega⟩, ⟨n.val % 512, by omega⟩), Fin.ext (by
      show 512 * (n.val / 512) + n.val % 512 = n.val
      exact Nat.div_add_mod _ _)⟩
  rw [h, ← Finset.image_univ_of_surjective hsurj, Finset.inf_image, ← Finset.univ_product_univ,
    Finset.inf_product_left]
  rfl

end Cert.Nearest

end
-- ==== Proof.LibMinLast.lean ====
/-
  The minimum over the last axis of a three-axis array of extended reals.

  The minimum is commutative and associative, so the host's reduction that takes it over the last axis of an
  [a, m, n] array is, at (p, q), the fold of the minimum from the starting value's element over the entries (p, q, r).
-/
import Idealize.ShloMosaic.Lib.ValueIdx
import Idealize.ShloMosaic.PureOps.Reduce
import Idealize.ShloMosaic.PureOps.Ideal
import Idealize.ShloMosaic.PureOps.Ideal.Laws

noncomputable section

namespace Cert.MinLast

open Idealize.ShloMosaic Idealize.ShloMosaic.ValueIdx

/-- The host's minimum over the last axis of an [a, m, n] array of extended reals, from the starting value's element:
    at (p, q) the fold of the minimum over the entries (p, q, r). -/
theorem hostReduce_min_last {a m n : ℕ} {φ : FTy} {u : Shape} (y : FVec Ideal ⟨3, ![a, m, n]⟩ φ) (init : u.Idx → Ideal φ)
    (h' : (⟨3, ![a, m, n]⟩ : Shape).ReducesTo [2] ⟨2, ![a, m]⟩) (h : (⟨3, ![a, m, n]⟩ : Shape).Reduces [2] ⟨2, ![a, m]⟩)
    (hu : 0 < u.numel) (p : Fin a) (q : Fin m) :
    Host.reduce (FloatOps.minimumf (F := Ideal) (φ := φ)) y init h' hu (ix2 p q)
      = (Finset.univ : Finset (Fin n)).fold (FloatOps.minimumf (F := Ideal) (φ := φ)) (init (Shape.Idx.first hu))
          (fun r => y (ix3 p q r)) := by
  rw [Host.reduce_eq_fold_single (s := ⟨3, ![a, m, n]⟩) (t := ⟨2, ![a, m]⟩) (a := (2 : Fin 3))
    (FloatOps.minimumf (F := Ideal) (φ := φ)) y init h' h hu (ix2 p q)]
  refine Finset.fold_congr fun k _ => ?_
  rw [Function.comp_apply]
  exact congrArg y (funext fun ax => Fin.ext (by match ax with | ⟨0, _⟩ => rfl | ⟨1, _⟩ => rfl | ⟨2, _⟩ => rfl))

end Cert.MinLast

end
-- ==== Proof.RefSide.lean ====
/-
  The reference's result read index by index.

  The reference forms, for every batch b, every point m of the 4096-point cloud and every point n of the 8192-point
  cloud, the squared distance in expanded form |p|² + |c|² − 2·⟨p, c⟩, clips it below at zero and takes the square
  root; it then takes, for every (b, m), the minimum over n from +∞.  Read at the index (b, m) this is the minimum over
  n of the clipped roots, and clipping and rooting commutes with the minimum of a finite family, so it is the clipped
  root of the least squared distance.
-/
import proofs.«118119_j20409684590743_2_alg».proof.Proof.Gen.ReferenceIdeal.Run
import proofs.«118119_j20409684590743_2_alg».proof.Proof.Gen.ReferenceIdeal.Read
import proofs.«118119_j20409684590743_2_alg».proof.Proof.NearestSpec
import proofs.«118119_j20409684590743_2_alg».proof.Proof.LibMinLast
import Idealize.ShloMosaic.Lib.ValueIdx
import Idealize.ShloMosaic.PureOps.Reduce
import Idealize.ShloMosaic.PureOps.Ideal
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.MinLast

/-! ## One entry before the minimum -/

variable (x0 : (⟨S8x8192x3, .f32⟩ : BufTy).Contents (Elt Ideal)) (x1 : (⟨S8x4096x3, .f32⟩ : BufTy).Contents (Elt Ideal))

/-- |p|², repeated along n: the sum over the three coordinates of the squares of point m. -/
theorem sq_pt_apply (b : Fin 8) (m : Fin 4096) (n : Fin 8192) :
    Read.val_main_v8 (F := Ideal) x1 (ix3 b m n) = ∑ d : Fin 3, x1 (ix3 b m d) * x1 (ix3 b m d) := by
  rw [Read.val_main_v8_apply, Read.val_main_v2_apply, Read.val_main_v1_apply, Read.val_main_cst_apply,
    Ideal.ofBits_def, Ideal.ofBits_zero_f32, zero_add]
  refine Finset.sum_congr rfl fun d _ => ?_
  rw [Read.val_main_v0_apply, Ideal.mulf_def]
  have e : Read.idx_main_v1 (Read.idx_main_v2 (Read.idx_main_v8 (ix3 b m n))) d = ix3 b m d :=
    funext fun a => Fin.ext (by match a with | ⟨0, _⟩ => rfl | ⟨1, _⟩ => rfl | ⟨2, _⟩ => rfl)
  rw [e]

/-- |c|², repeated along m: the sum over the three coordinates of the squares of point n. -/
theorem sq_cp_apply (b : Fin 8) (m : Fin 4096) (n : Fin 8192) :
    Read.val_main_v9 (F := Ideal) x0 (ix3 b m n) = ∑ d : Fin 3, x0 (ix3 b n d) * x0 (ix3 b n d) := by
  rw [Read.val_main_v9_apply, Read.val_main_v7_apply, Read.val_main_v5_apply, Read.val_main_v4_apply,
    Read.val_main_cst_0_apply, Ideal.ofBits_def, Ideal.ofBits_zero_f32, zero_add]
  refine Finset.sum_congr rfl fun d _ => ?_
  rw [Read.val_main_v3_apply, Ideal.mulf_def]
  have e : Read.idx_main_v4 (Read.idx_main_v5 (Read.idx_main_v7 (Read.idx_main_v9 (ix3 b m n)))) d = ix3 b n d :=
    funext fun a => Fin.ext (by match a with | ⟨0, _⟩ => rfl | ⟨1, _⟩ => rfl | ⟨2, _⟩ => rfl)
  rw [e]

/-- ⟨p, c⟩: the sum over the three coordinates of the products of point m's and point n's. -/
theorem cross_apply (b : Fin 8) (m : Fin 4096) (n : Fin 8192) :
    Read.val_main_v6 (F := Ideal) x0 x1 (ix3 b m n) = ∑ d : Fin 3, x1 (ix3 b m d) * x0 (ix3 b n d) := by
  rw [Read.val_main_v6_apply]
  refine Finset.sum_congr rfl fun d _ => ?_
  have el : Read.lidx_main_v6 (ix3 b m n) d = ix3 b m d :=
    funext fun a => Fin.ext (by match a with | ⟨0, _⟩ => rfl | ⟨1, _⟩ => rfl | ⟨2, _⟩ => rfl)
  have er : Read.ridx_main_v6 (ix3 b m n) d = ix3 b n d :=
    funext fun a => Fin.ext (by match a with | ⟨0, _⟩ => rfl | ⟨1, _⟩ => rfl | ⟨2, _⟩ => rfl)
  rw [el, er]

/-- The entry (b, m, n) before the minimum: the squared distance, clipped below at zero and rooted. -/
theorem entry_eq (b : Fin 8) (m : Fin 4096) (n : Fin 8192) :
    Read.val_main_v16 (F := Ideal) x0 x1 (ix3 b m n) = Cert.Nearest.root (Cert.Nearest.sqDist x0 x1 b m n) := by
  rw [Read.val_main_v16_apply, Read.val_main_v15_apply, Read.val_main_v13_apply, Read.val_main_v10_apply,
    Read.val_main_v12_apply, Read.val_main_v11_apply, Read.val_main_cst_1_apply, Read.val_main_v14_apply,
    Read.val_main_cst_2_apply, sq_pt_apply, sq_cp_apply, cross_apply,
    Ideal.hostUnary_sqrt_def, Ideal.maximumf_def, Ideal.subf_def, Ideal.addf_def, Ideal.mulf_def,
    Ideal.ofBits_def, Ideal.ofBits_def, Ideal.ofBits_zero_f32]
  rfl

/-! ## The result at (b, m) -/

/-- The reference's minimum over n at (b, m) is the distance from point m of batch b to the nearest of the 8192 points. -/
theorem rows_eq (b : Fin 8) (m : Fin 4096) :
    Cert.ReferenceIdeal.Read.val_main_v17 (F := Ideal) x0 x1 (ix2 b m) = Cert.Nearest.nearest x0 x1 b m := by
  unfold Cert.ReferenceIdeal.Read.val_main_v17
  have hred : S8x4096x8192.Reduces [2] S8x4096 := by decide
  refine (hostReduce_min_last (Read.val_main_v16 (F := Ideal) x0 x1) (Read.val_main_cst_3 (F := Ideal))
    reducesTo_S8x4096x8192_S8x4096_d2 hred h_S_ b m).trans ?_
  rw [Read.val_main_cst_3_apply, Ideal.ofBits_def, Cert.Nearest.ofBits_inf]
  show (Finset.univ : Finset (Fin 8192)).fold min ⊤ (fun r => Read.val_main_v16 (F := Ideal) x0 x1 (ix3 b m r)) = _
  rw [Cert.Nearest.fold_min_top]
  unfold Cert.Nearest.nearest
  rw [Cert.Nearest.root_inf]
  exact Finset.inf_congr rfl fun n _ => entry_eq x0 x1 b m n

end Cert.ReferenceIdeal.RefValue

end
-- ==== Proof.Pieces.lean ====
/-
  What one run of the kernel body leaves in the output block, in each of its three cases.

  The body keeps a running minimum in the output block.  At the first tile of a batch it first fills the block with +∞;
  at every tile it replaces the block by the minimum of the block and the tile's row minima; at the last tile it then
  replaces the block by its clipped square root.  Every store covers the whole block, so what the block ends holding
  is the last store's value, and a load that follows a store reads that store's value.
-/
import proofs.«118119_j20409684590743_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a three-axis block. -/
theorem hz : (![0, 0, 0] : Fin 3 → Nat) = fun _ => 0 := funext fun a => by fin_cases a <;> rfl

/-- A middle tile: the block `xo` carried from the tile before becomes its minimum with the tile's row minima. -/
theorem out_B (c : Dev nD) (i : grid0.Coords) (a3 : Memref sig .tc .vmem S1x4096x3 .f32) (h3 : a3.IsWhole)
    (a4 : Memref sig .tc .vmem S1x3x512 .f32) (h4 : a4.IsWhole) (a5 : Memref sig .tc .vmem S1x1x4096 .f32) (h5 : a5.IsWhole)
    (hc0 : ¬cond0_0 i) (hc1 : ¬cond0_1 i) (x0 : Vec F S1x4096x3 .f32) (x1 : Vec F S1x3x512 .f32) (xo : Vec F S1x1x4096 .f32) :
    out0_B_2 c i a3 h3 a4 h4 a5 h5 hc0 hc1 x0 x1 xo = k0_pay1 (k0_pay4 x0 x1) xo := by
  unfold out0_B_2
  rw [View.read_writes_eq_canon _ _ _ (cover0_B_2 c i a3 h3 a4 h4 a5 h5 hc0 hc1 x0 x1 xo)]
  unfold kernelRun0_B
  dsimp only
  sl_unfold_words
  rw [View.canon_unit_zero (S := S1x1x4096) hz]
  simp only [View.readAt_eq_ld, h3.read_unread, h4.read_unread, h5.read_unread, View.ld_unit_zero (S := S1x4096x3) hz,
    View.ld_unit_zero (S := S1x3x512) hz, View.ld_unit_zero (S := S1x1x4096) hz]

/-- The first tile of a batch: the block is filled with +∞ and then becomes its minimum with the tile's row minima. -/
theorem out_A (c : Dev nD) (i : grid0.Coords) (a3 : Memref sig .tc .vmem S1x4096x3 .f32) (h3 : a3.IsWhole)
    (a4 : Memref sig .tc .vmem S1x3x512 .f32) (h4 : a4.IsWhole) (a5 : Memref sig .tc .vmem S1x1x4096 .f32) (h5 : a5.IsWhole)
    (hc0 : cond0_0 i) (hc1 : ¬cond0_1 i) (x0 : Vec F S1x4096x3 .f32) (x1 : Vec F S1x3x512 .f32) :
    out0_A_2 c i a3 h3 a4 h4 a5 h5 hc0 hc1 x0 x1 = k0_pay1 (k0_pay4 x0 x1) (k0_pay3 (F := F)) := by
  unfold out0_A_2
  rw [View.read_writes_eq_canon _ _ _ (cover0_A_2 c i a3 h3 a4 h4 a5 h5 hc0 hc1 x0 x1)]
  unfold kernelRun0_A
  dsimp only
  sl_unfold_words
  rw [View.canon_cons_unit_zero (S := S1x1x4096) hz, View.readCov_unit_zero (S := S1x1x4096) _ hz]
  simp only [View.readAt_eq_ld, h3.read_unread, h4.read_unread, View.ld_unit_zero (S := S1x4096x3) hz,
    View.ld_unit_zero (S := S1x3x512) hz]

/-- The last tile of a batch: the block `xo` carried from the tile before becomes its minimum with the tile's row
    minima, and then the clipped square root of that. -/
theorem out_C (c : Dev nD) (i : grid0.Coords) (a3 : Memref sig .tc .vmem S1x4096x3 .f32) (h3 : a3.IsWhole)
    (a4 : Memref sig .tc .vmem S1x3x512 .f32) (h4 : a4.IsWhole) (a5 : Memref sig .tc .vmem S1x1x4096 .f32) (h5 : a5.IsWhole)
    (hc0 : ¬cond0_0 i) (hc1 : cond0_1 i) (x0 : Vec F S1x4096x3 .f32) (x1 : Vec F S1x3x512 .f32) (xo : Vec F S1x1x4096 .f32) :
    out0_C_2 c i a3 h3 a4 h4 a5 h5 hc0 hc1 x0 x1 xo = k0_pay2 (k0_pay1 (k0_pay4 x0 x1) xo) := by
  unfold out0_C_2
  rw [View.read_writes_eq_canon _ _ _ (cover0_C_2 c i a3 h3 a4 h4 a5 h5 hc0 hc1 x0 x1 xo)]
  unfold kernelRun0_C
  dsimp only
  sl_unfold_words
  rw [View.canon_cons_unit_zero (S := S1x1x4096) hz, View.readCov_unit_zero (S := S1x1x4096) _ hz]
  simp only [View.readAt_eq_ld, h3.read_unread, h4.read_unread, h5.read_unread, View.ld_unit_zero (S := S1x4096x3) hz,
    View.ld_unit_zero (S := S1x3x512) hz, View.ld_unit_zero (S := S1x1x4096) hz]

end Cert.KernelIdeal.Pieces

end
-- ==== Proof.Blocks.lean ====
/-
  Where the blocks the body reads sit in the two clouds.

  The grid runs over 8 batches and, within a batch, over 16 tiles of 512 points of the larger cloud: point t of the
  grid is tile t % 16 of batch t / 16.  The first input block at t is the whole smaller cloud of batch t / 16, three
  coordinates per point.  The second is read off the larger cloud with its last two axes exchanged, so it holds,
  coordinate by coordinate, the 512 points of tile t % 16 of batch t / 16.
-/
import proofs.«118119_j20409684590743_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The block indices at grid point t: batch t / 16 on the first axis; the second input also moves along its last
    axis, by the tile t % 16. -/
theorem index_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = 0 :=
  (by decide +kernel : ∀ t : Fin grid0.N, _)

/-- The array the second window reads is the larger cloud with its last two axes exchanged. -/
theorem V_v0 (c : Dev nD) : (V m c main_v0 : S8x3x8192.Idx → Elt F .f32)
    = transpose S8x3x8192 [0, 2, 1] (m ((c : Thread nD τ).loc main_arg0)) transposes_S8x8192x3_S8x3x8192_0_2_1 := by
  show StableHlo.after hostOps0 (fun b => m (c, b)) (Proc.devRef .tc main_v0) = _
  after_results

/-- Exchanging the last two axes, read at an entry. -/
theorem swapped_apply (y : S8x8192x3.Idx → Elt F .f32) (b : Fin 8) (d : Fin 3) (n : Fin 8192) :
    transpose S8x3x8192 [0, 2, 1] y transposes_S8x8192x3_S8x3x8192_0_2_1 (ix3 b d n) = y (ix3 b n d) :=
  transpose_apply [0, 2, 1] y transposes_S8x8192x3_S8x3x8192_0_2_1 (ix3 b d n) (ix3 b n d) (fun a => match a with
    | ⟨0, _⟩ => rfl
    | ⟨1, _⟩ => rfl
    | ⟨2, _⟩ => rfl)

/-- The first input block at grid point t: entry (0, p, d) is coordinate d of point p of batch t / 16 of the smaller cloud. -/
theorem first_block_apply (c : Dev nD) (t : Fin cfg0.N) (p : Fin 4096) (d : Fin 3) (b : Fin 8) (hb : b.val = t.val / 16) :
    (iblk m c 0 t : Vec F S1x4096x3 .f32) (ix3 (0 : Fin 1) p d) = m ((c : Thread nD τ).loc main_arg1) (ix3 b p d) := by
  rw [← V_main_arg1 m c]
  unfold iblk
  rw [View.read_apply]
  show V m c main_arg1 (((cfg0.win 0).blk t).view.emb (ix3 (0 : Fin 1) p d)) = V m c main_arg1 (ix3 b p d)
  obtain ⟨e0, e1, e2, -⟩ := index_facts t
  refine congrArg (V m c main_arg1) (funext fun a => Fin.ext ?_)
  match a with
  | ⟨0, _⟩ => show win0_0.index t (0 : Fin 3) * 1 + 1 * 0 = b.val; omega
  | ⟨1, _⟩ => show win0_0.index t (1 : Fin 3) * 4096 + 1 * p.val = p.val; omega
  | ⟨2, _⟩ => show win0_0.index t (2 : Fin 3) * 3 + 1 * d.val = d.val; omega

/-- The second input block at grid point t: entry (0, d, j) is coordinate d of point 512·(t % 16) + j of batch t / 16
    of the larger cloud. -/
theorem second_block_apply (c : Dev nD) (t : Fin cfg0.N) (d : Fin 3) (j : Fin 512) (b : Fin 8) (n : Fin 8192)
    (hb : b.val = t.val / 16) (hn : n.val = 512 * (t.val % 16) + j.val) :
    (iblk m c 1 t : Vec F S1x3x512 .f32) (ix3 (0 : Fin 1) d j) = m ((c : Thread nD τ).loc main_arg0) (ix3 b n d) := by
  rw [← swapped_apply (m ((c : Thread nD τ).loc main_arg0)) b d n, ← V_v0 m c]
  unfold iblk
  rw [View.read_apply]
  show V m c main_v0 (((cfg0.win 1).blk t).view.emb (ix3 (0 : Fin 1) d j)) = V m c main_v0 (ix3 b d n)
  obtain ⟨-, -, -, e0, e1, e2, -⟩ := index_facts t
  refine congrArg (V m c main_v0) (funext fun a => Fin.ext ?_)
  match a with
  | ⟨0, _⟩ => show win0_1.index t (0 : Fin 3) * 1 + 1 * 0 = b.val; omega
  | ⟨1, _⟩ => show win0_1.index t (1 : Fin 3) * 3 + 1 * d.val = d.val; omega
  | ⟨2, _⟩ => show win0_1.index t (2 : Fin 3) * 512 + 1 * j.val = n.val; omega

end Cert.KernelIdeal.Blocks

end
-- ==== Proof.LibRowMin.lean ====
/-
  The minimum over one axis of an array of extended reals, taken from +∞ (the pattern 0x7F800000).

  The minimum is commutative and associative on the extended reals, so a reduction that takes it over one axis is, at
  each remaining index, the fold of the minimum from the starting value over that axis's coordinates, in any order.  For a
  two-axis array [a, n] reduced over its second axis this is, at row p, the fold over the entries (p, d) of the row, for
  the vector reduction of a kernel and for the host's reduction alike.
-/
import Idealize.ShloMosaic.Lib.ValueIdx
import Idealize.ShloMosaic.PureOps.Reduce
import Idealize.ShloMosaic.PureOps.Ideal.Laws

noncomputable section

namespace Cert.RowMin

open Idealize.ShloMosaic Idealize.ShloMosaic.ValueIdx

/-- A minimum reduction over one axis, read on the extended reals: the fold of the minimum from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the second axis of an [a, n] array of extended reals, taken from +∞: at row p the fold of the
    minimum from +∞ over the entries (p, d). -/
theorem min_over_columns_apply {a n : ℕ} (src : FVec Ideal ⟨2, ![a, n]⟩ .f32)
    (h : (⟨2, ![a, n]⟩ : Shape).Reduces [1] ⟨1, ![a]⟩) (hφ : FKind.Formats .f32)
    (hacc : (0x7F800000#32 : BitVec 32) = 0x7F800000#32) (p : Fin a) :
    multiReduction .minimumf [1] ⟨1, ![a]⟩ src 0x7F800000#32 h hφ hacc (ix1 p)
      = (Finset.univ : Finset (Fin n)).fold min (Ideal.ofBits .f32 0x7F800000#32) (fun d => src (ix2 p d)) :=
  (multiReduction_minimumf_single src 0x7F800000#32 h hφ hacc (ix1 p)).trans
    (Finset.fold_congr fun d _ => congrArg src (funext fun ax => Fin.ext (by
      match ax with
      | ⟨0, _⟩ => rfl
      | ⟨1, _⟩ => rfl)))

/-- The host's minimum over the second axis of an [a, n] array of extended reals, from the starting value's element: at
    row p the fold of the minimum over the columns q of the entries (p, q). -/
theorem hostReduce_min_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.minimumf (F := Ideal) (φ := φ)) y init h' hu (ix1 p)
      = (Finset.univ : Finset (Fin n)).fold (FloatOps.minimumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.minimumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.RowMin

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibCutRepeat.lean ====
/-
  Readings at an entry for the shapes a tile of pairwise products meets.

  Column k of an [a, n] array, cut out as [a, 1] and repeated along the columns, reads at (p, q) the entry (p, k); row
  k of an [n, b] array, cut out as [1, b] and repeated along the rows, reads at (p, q) the entry (k, q).  The sum over
  the FIRST axis of an [n, b] array of extended reals is at column q the sum over d of the entries (d, q).  A
  [1, 1, n] array and a vector of n values are read through each other at (0, 0, m) and m.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.CutRepeat

open Idealize.ShloMosaic Idealize.ShloMosaic.ValueIdx

/-! ## Layout readings at an entry (p, q) -/

section Layout
variable {α : Type}

/-- Column k of an [a, n] array, cut out as [a, 1] and repeated along b columns: at (p, q) it is the entry (p, k). -/
theorem column_cut_repeated_apply {a n b : ℕ} (o : ℕ) (X : (⟨2, ![a, n]⟩ : Shape).Idx → α)
    (h : (⟨2, ![a, n]⟩ : Shape).Slices ![0, o] ⟨2, ![a, 1]⟩)
    (hb : (⟨2, ![a, 1]⟩ : Shape).Broadcasts ⟨2, ![a, b]⟩) (p : Fin a) (q : Fin b) (k : Fin n) (hk : k.val = o) :
    broadcastTo ⟨2, ![a, b]⟩ (extractStridedSlice ⟨2, ![a, 1]⟩ ![0, o] X h) hb (ix2 p q) = X (ix2 p k) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact slice2_axis1_apply o X h p (0 : Fin 1) k (by rw [hk]; rfl)

/-- Row k of an [n, b] array, cut out as [1, b] and repeated along a rows: at (p, q) it is the entry (k, q). -/
theorem row_cut_repeated_apply {a n b : ℕ} (o : ℕ) (X : (⟨2, ![n, b]⟩ : Shape).Idx → α)
    (h : (⟨2, ![n, b]⟩ : Shape).Slices ![o, 0] ⟨2, ![1, b]⟩)
    (hb : (⟨2, ![1, b]⟩ : Shape).Broadcasts ⟨2, ![a, b]⟩) (p : Fin a) (q : Fin b) (k : Fin n) (hk : k.val = o) :
    broadcastTo ⟨2, ![a, b]⟩ (extractStridedSlice ⟨2, ![1, b]⟩ ![o, 0] X h) hb (ix2 p q) = X (ix2 k q) :=
  (broadcastTo_1b_ab_apply _ hb p q).trans (slice2_axis0_apply o X h (0 : Fin 1) q k (by rw [hk]; rfl))

end Layout

/-- The sum over the first axis of an [n, b] array of extended reals: at column q the sum over d of the entries (d, q). -/
theorem sum_over_rows_apply {n b : ℕ} (src : FVec Ideal ⟨2, ![n, b]⟩ .f32)
    (h : (⟨2, ![n, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ d : Fin n, src (ix2 d q) :=
  (Ideal.multiReduction_add_single src 0x00000000#32 h hφ hacc (ix1 q)).trans
    (Finset.sum_congr rfl fun d _ => congrArg src (funext fun ax => Fin.ext (by
      match ax with
      | ⟨0, _⟩ => rfl
      | ⟨1, _⟩ => rfl)))

/-! ## The vector of 4096 values and its [1, 1, 4096] form -/

section Flat
variable {α : Type}

/-- A [1, 1, n] array read as a vector of n values: at m it is the entry (0, 0, m). -/
theorem flat_apply {n : ℕ} (x : (⟨3, ![1, 1, n]⟩ : Shape).Idx → α)
    (h : (⟨3, ![1, 1, n]⟩ : Shape).ShapeCasts ⟨1, ![n]⟩) (m : Fin n) :
    shapeCast ⟨1, ![n]⟩ x h (ix1 m) = x (ix3 (0 : Fin 1) (0 : Fin 1) m) :=
  shapeCast_apply x h _ _ (by
    rw [Shape.rowMajor_val_three, Shape.rowMajor_val_one]
    show (0 * 1 + 0) * n + m.val = m.val
    omega)

/-- A vector of n values read as a [1, 1, n] array: at (0, 0, m) it is the value at m. -/
theorem unflat_apply {n : ℕ} (x : (⟨1, ![n]⟩ : Shape).Idx → α)
    (h : (⟨1, ![n]⟩ : Shape).ShapeCasts ⟨3, ![1, 1, n]⟩) (m : Fin n) :
    shapeCast ⟨3, ![1, 1, n]⟩ x h (ix3 (0 : Fin 1) (0 : Fin 1) m) = x (ix1 m) :=
  shapeCast_apply x h _ _ (by
    rw [Shape.rowMajor_val_three, Shape.rowMajor_val_one]
    show m.val = (0 * 1 + 0) * n + m.val
    omega)

end Flat

end Cert.CutRepeat

end
-- ==== Proof.Payload.lean ====
/-
  The kernel's four computed values, read at one element on the extended reals.

  The tile's computation takes a block p of 4096 points and a block c of 512 points, three coordinates each, and forms
  at (m, j) the expanded squared distance |p_m|² + |c_j|² − 2·⟨p_m, c_j⟩: the two squared norms are sums over the three
  coordinates, kept as a column and as a row and repeated over the tile, and the cross term is accumulated from zero one
  coordinate at a time, column d of p against row d of c.  The minimum over j from +∞ is the tile's least squared distance
  for point m.  The other three values are elementwise: the running minimum takes in the tile's minimum, the final value
  is clipped at zero and rooted, and the running minimum starts at +∞.
-/
import proofs.«118119_j20409684590743_2_alg».proof.Proof.Gen.KernelIdeal.Skeleton
import proofs.«118119_j20409684590743_2_alg».proof.Proof.NearestSpec
import proofs.«118119_j20409684590743_2_alg».proof.Proof.LibRowMin
import proofs.«118119_j20409684590743_2_alg».proof.Proof.LibRowOps
import proofs.«118119_j20409684590743_2_alg».proof.Proof.LibCutRepeat
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.CutRepeat

/-! ## The three elementwise values -/

/-- The running minimum takes in the tile's minimum. -/
theorem pay1_apply (v38 : FVec Ideal S4096 .f32) (v39 : Vec Ideal S1x1x4096 .f32) (mm : Fin 4096) :
    k0_pay1 (F := Ideal) v38 v39 (ix3 (0 : Fin 1) (0 : Fin 1) mm) = min (v39 (ix3 (0 : Fin 1) (0 : Fin 1) mm)) (v38 (ix1 mm)) := by
  unfold k0_pay1
  refine (unflat_apply _ _ mm).trans ?_
  rw [minimumf_apply]
  exact congrArg (fun t => min t (v38 (ix1 mm))) (flat_apply v39 _ mm)

/-- The final value is the stored one clipped at zero and rooted. -/
theorem pay2_apply (v48 : Vec Ideal S1x1x4096 .f32) (mm : Fin 4096) :
    k0_pay2 (F := Ideal) v48 (ix3 (0 : Fin 1) (0 : Fin 1) mm) = Cert.Nearest.root (v48 (ix3 (0 : Fin 1) (0 : Fin 1) mm)) := by
  unfold k0_pay2
  refine (unflat_apply _ _ mm).trans ?_
  show Ideal.sqrt (max (shapeCast S4096 v48 _ (ix1 mm)) (Ideal.ofBits .f32 0x00000000#32)) = _
  rw [flat_apply v48 _ mm, Ideal.ofBits_zero_f32]
  rfl

/-- The running minimum starts at +∞. -/
theorem pay3_apply (mm : Fin 4096) : k0_pay3 (F := Ideal) (ix3 (0 : Fin 1) (0 : Fin 1) mm) = (⊤ : EReal) := by
  unfold k0_pay3
  refine (unflat_apply _ _ mm).trans ?_
  exact Cert.Nearest.ofBits_inf

/-! ## The tile's least squared distance -/

/-- The least over the tile's 512 points j of the expanded squared distance from point m. -/
theorem pay4_apply (x0 : Vec Ideal S1x4096x3 .f32) (x1 : Vec Ideal S1x3x512 .f32) (mm : Fin 4096) :
    k0_pay4 (F := Ideal) x0 x1 (ix1 mm)
      = (Finset.univ : Finset (Fin 512)).inf (fun j =>
          ((∑ d : Fin 3, x0 (ix3 (0 : Fin 1) mm d) * x0 (ix3 (0 : Fin 1) mm d)) + (∑ d : Fin 3, x1 (ix3 (0 : Fin 1) d j) * x1 (ix3 (0 : Fin 1) d j)))
            - Cert.Nearest.two * (∑ d : Fin 3, x0 (ix3 (0 : Fin 1) mm d) * x1 (ix3 (0 : Fin 1) d j))) := by
  unfold k0_pay4
  -- the minimum over the columns, from +∞, is the infimum over j of the entry (m, j)
  refine (Cert.RowMin.min_over_columns_apply _ _ _ _ mm).trans ?_
  rw [Cert.Nearest.ofBits_inf, Cert.Nearest.fold_min_top]
  refine Finset.inf_congr rfl fun j _ => ?_
  -- the entry (m, j): (|p|² repeated + |c|² repeated) − 2 · (((0 + p₀c₀) + p₁c₁) + p₂c₂)
  simp only [subf_apply, addf_apply, mulf_apply, broadcast_apply]
  rw [Cert.RowOps.column_repeated_apply, Cert.RowOps.row_repeated_apply,
    Cert.RowOps.sum_over_columns_apply, sum_over_rows_apply,
    column_cut_repeated_apply 0 _ _ _ mm j (0 : Fin 3) rfl, column_cut_repeated_apply 1 _ _ _ mm j (1 : Fin 3) rfl,
    column_cut_repeated_apply 2 _ _ _ mm j (2 : Fin 3) rfl,
    row_cut_repeated_apply 0 _ _ _ mm j (0 : Fin 3) rfl, row_cut_repeated_apply 1 _ _ _ mm j (1 : Fin 3) rfl,
    row_cut_repeated_apply 2 _ _ _ mm j (2 : Fin 3) rfl]
  simp only [mulf_apply, shapeCast_1ab_ab_apply, Fin.sum_univ_three, Ideal.ofBits_def, Ideal.ofBits_zero_f32, zero_add]
  rfl

end Cert.KernelIdeal.Pay

end
-- ==== Proof.Steps.lean ====
/-
  The running minimum, one tile at a time.

  After tile k of a batch the output holds the least squared distance over tiles 0 … k, except after the last tile,
  when it holds the distance itself: the clipped square root of the least squared distance over all the points.
  Each tile's step is one minimum, started from +∞ at the first tile and followed by the root at the last.
-/
import proofs.«118119_j20409684590743_2_alg».proof.Proof.NearestSpec

noncomputable section

namespace Cert.Nearest

variable (cp : Cloud 8192) (pt : Cloud 4096) (b : Fin 8) (m : Fin 4096)

/-- What the output holds at point m of batch b after tile k. -/
def heldAt (k : ℕ) : EReal := if k = 15 then nearest cp pt b m else running cp pt b m k

/-- The first tile: the minimum of +∞ and the tile's minimum. -/
theorem step_first (kk : Fin 16) (hkk : kk.val = 0) : min ⊤ (tileMin cp pt b m kk) = heldAt cp pt b m 0 := by
  obtain rfl : kk = 0 := Fin.ext hkk
  unfold heldAt
  rw [if_neg (by decide)]
  exact (running_zero cp pt b m).symm

/-- A middle tile: the minimum of what was held and the tile's minimum. -/
theorem step_mid (k : ℕ) (kk : Fin 16) (hkk : kk.val = k + 1) (hk : k + 1 < 15) :
    min (heldAt cp pt b m k) (tileMin cp pt b m kk) = heldAt cp pt b m (k + 1) := by
  obtain rfl : kk = ⟨k + 1, Nat.lt_trans hk (by decide)⟩ := Fin.ext hkk
  unfold heldAt
  rw [if_neg (by omega), if_neg (by omega)]
  exact (running_succ cp pt b m k (Nat.lt_trans hk (by decide))).symm

/-- The last tile: the clipped root of the minimum of what was held and the tile's minimum. -/
theorem step_last (k : ℕ) (kk : Fin 16) (hkk : kk.val = k + 1) (hk : k + 1 = 15) :
    root (min (heldAt cp pt b m k) (tileMin cp pt b m kk)) = heldAt cp pt b m (k + 1) := by
  obtain rfl : k = 14 := by omega
  obtain rfl : kk = ⟨14 + 1, by decide⟩ := Fin.ext hkk
  unfold heldAt
  rw [if_neg (by decide), if_pos rfl, ← running_succ cp pt b m 14 (by decide), running_last]
  rfl

end Cert.Nearest

end
-- ==== Proof.Accum.lean ====
/-
  What the output block holds after every grid point.

  Grid point n is tile n % 16 of batch n / 16.  By induction on n, after the body has run at point n the output block
  holds, at each of its 4096 points m, the least squared distance from m to the points of tiles 0 … n % 16 of that
  batch — and, after the batch's last tile, the distance to the nearest of all its 8192 points.  The first tile of a
  batch starts from +∞, a later tile from what the tile before left, and the last tile finishes with the clipped root.
-/
import proofs.«118119_j20409684590743_2_alg».proof.Proof.Pieces
import proofs.«118119_j20409684590743_2_alg».proof.Proof.Blocks
import proofs.«118119_j20409684590743_2_alg».proof.Proof.Payload
import proofs.«118119_j20409684590743_2_alg».proof.Proof.Steps

noncomputable section

open Idealize.ShloMosaic Idealize.ShloMosaic.TcCoe Idealize.SL.Sem

namespace Cert.KernelIdeal.Accum

open Cert.KernelIdeal Cert.KernelIdeal.Gen Idealize.ShloMosaic.ValueIdx Cert.Nearest

variable (m : (ℓ : Loc nD τ sig) → Buf (Elt Ideal) ℓ) (c : Dev nD)

/-- The larger cloud: 8192 points per batch. -/
def cp : Cloud 8192 := m ((c : Thread nD τ).loc main_arg0)
/-- The smaller cloud: 4096 points per batch. -/
def pt : Cloud 4096 := m ((c : Thread nD τ).loc main_arg1)

/-- The tile's row minima at grid point t are the least squared distances within tile t % 16 of batch t / 16. -/
theorem tile_eq (t : Fin cfg0.N) (b : Fin 8) (k : Fin 16) (hb : b.val = t.val / 16) (hk : k.val = t.val % 16)
    (mm : Fin 4096) :
    k0_pay4 (F := Ideal) (iblk m c 0 t) (iblk m c 1 t) (ix1 mm) = tileMin (cp m c) (pt m c) b mm k := by
  refine (Pay.pay4_apply (iblk m c 0 t) (iblk m c 1 t) mm).trans ?_
  unfold tileMin sqDist cp pt
  refine Finset.inf_congr rfl fun j _ => ?_
  simp only [Blocks.first_block_apply m c t mm _ b hb,
    Blocks.second_block_apply m c t _ j b (col k j) hb (by show 512 * k.val + j.val = _; rw [hk])]

/-- After grid point n the output block holds, at point mm, the running state of batch n / 16 after tile n % 16. -/
theorem outsAt_apply : ∀ (n : ℕ) (h : n < cfg0.N) (mm : Fin 4096) (b : Fin 8) (hb : b.val = n / 16),
    outsAt0 m c n h (ix3 (0 : Fin 1) (0 : Fin 1) mm) = heldAt (cp m c) (pt m c) b mm (n % 16)
  | 0, h, mm, b, hb => by
    rw [outsAt0_A m c ⟨0, h⟩ rfl (by show ¬(0 % 16 = 15); decide), Pieces.out_A, Pay.pay1_apply, Pay.pay3_apply,
      tile_eq m c ⟨0, h⟩ b 0 hb rfl mm]
    exact step_first _ _ b mm 0 rfl
  | n + 1, h, mm, b, hb => by
    have hN : n + 1 < 128 := lt_of_lt_of_eq h (show cfg0.N = 128 from N_0)
    obtain ⟨kk, hkk⟩ : ∃ kk : Fin 16, kk.val = (n + 1) % 16 := ⟨⟨(n + 1) % 16, Nat.mod_lt _ (by decide)⟩, rfl⟩
    by_cases h0 : (n + 1) % 16 = 0
    · have h1 : ¬(n + 1) % 16 = 15 := by omega
      rw [outsAt0_A m c ⟨n + 1, h⟩ h0 h1, Pieces.out_A, Pay.pay1_apply, Pay.pay3_apply,
        tile_eq m c ⟨n + 1, h⟩ b kk hb hkk mm, h0]
      exact step_first _ _ b mm kk (hkk.trans h0)
    · have ih := outsAt_apply n (Nat.lt_of_succ_lt h) mm b (by omega)
      have hsucc : (n + 1) % 16 = n % 16 + 1 := by omega
      by_cases h1 : (n + 1) % 16 = 15
      · rw [outsAt0_C m c ⟨n + 1, h⟩ h0 h1, Pieces.out_C, Pay.pay2_apply, Pay.pay1_apply,
          tile_eq m c ⟨n + 1, h⟩ b kk hb hkk mm]
        show root (min (outsAt0 m c n _ (ix3 (0 : Fin 1) (0 : Fin 1) mm)) _) = _
        rw [ih]
        exact (step_last _ _ b mm (n % 16) kk (hkk.trans hsucc) (by omega)).trans
          (congrArg (heldAt (cp m c) (pt m c) b mm) hsucc.symm)
      · rw [outsAt0_B m c ⟨n + 1, h⟩ h0 h1, Pieces.out_B, Pay.pay1_apply,
          tile_eq m c ⟨n + 1, h⟩ b kk hb hkk mm]
        show min (outsAt0 m c n _ (ix3 (0 : Fin 1) (0 : Fin 1) mm)) _ = _
        rw [ih]
        exact (step_mid _ _ b mm (n % 16) kk (hkk.trans hsucc) (by omega)).trans
          (congrArg (heldAt (cp m c) (pt m c) b mm) hsucc.symm)

/-- The same as one function of the block's index. -/
theorem outsAt_eq (n : ℕ) (h : n < cfg0.N) (b : Fin 8) (hb : b.val = n / 16) :
    outsAt0 m c n h = fun y => heldAt (cp m c) (pt m c) b ⟨(y 2).val, (y 2).isLt⟩ (n % 16) := by
  funext y
  obtain ⟨a, a', mm, rfl⟩ : ∃ (a : Fin 1) (a' : Fin 1) (mm : Fin 4096), y = ix3 a a' mm := ⟨y 0, y 1, y 2, eq_ix3 y⟩
  obtain rfl : a = 0 := Subsingleton.elim _ _
  obtain rfl : a' = 0 := Subsingleton.elim _ _
  exact outsAt_apply m c n h mm b hb

end Cert.KernelIdeal.Accum

end
-- ==== Proof.KernelValue.lean ====
/-
  The kernel's run, read: what its result holds.

  The output array [8, 1, 4096] is written back once per batch, after the batch's last tile, and the eight blocks
  written back cover it; so it ends holding, at (b, 0, m), the distance from point m of batch b to the nearest point of
  the larger cloud.  The program then drops the unit axis, sums the 8 · 4096 distances from zero and divides by 32768.
-/
import proofs.«118119_j20409684590743_2_alg».proof.Proof.Accum
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.Nearest Cert.KernelIdeal.Accum

variable (m : (ℓ : Loc nD τ sig) → Buf (Elt Ideal) ℓ) (ρ : Dev nD → PrngReg)

/-- The distances, one per batch and point, laid out as the output array [8, 1, 4096]. -/
def dists (cp : Cloud 8192) (pt : Cloud 4096) : S8x1x4096.Idx → EReal := fun i =>
  nearest cp pt ⟨(i 0).val, (i 0).isLt⟩ ⟨(i 2).val, (i 2).isLt⟩

theorem nearest_congr (cp : Cloud 8192) (pt : Cloud 4096) {b b' : Fin 8} {p p' : Fin 4096} (hb : b = b') (hp : p = p') :
    nearest cp pt b p = nearest cp pt b' p' := by subst hb hp; rfl

/-- What a write-back writes is its block of the distances: it happens after a batch's last tile, when the output
    block holds that batch's distances. -/
theorem flushed_eq (c : Dev nD) (t : Fin cfg0.N) (hf : (cfg0.win 2).flush t = true) :
    (dats m 0 c).flushed 2 t = ((cfg0.win 2).blk t).view.read (Elt Ideal) (dists (cp m c) (pt m c)) := by
  have hN : t.val < 128 := lt_of_lt_of_eq t.isLt (show cfg0.N = 128 from N_0)
  have h15 : t.val % 16 = 15 := (flush0_2 t).mp hf
  obtain ⟨-, -, -, -, -, -, e0, e1, e2⟩ := Blocks.index_facts t
  show (cfg0.win 2).cut (grid0.coords t) ((dats m 0 c).after 2 t) = _
  rw [after0_2, outsAt_eq m c t.val t.isLt ⟨t.val / 16, by omega⟩ rfl]
  funext y
  rw [View.read_apply]
  show heldAt (cp m c) (pt m c) ⟨t.val / 16, _⟩ ⟨(y 2).val, _⟩ (t.val % 16)
    = dists (cp m c) (pt m c) (((cfg0.win 2).blk t).view.emb y)
  unfold heldAt dists
  rw [if_pos h15]
  refine nearest_congr _ _ (Fin.ext ?_) (Fin.ext ?_)
  · show t.val / 16 = win0_2.index t (0 : Fin 3) * 1 + 1 * (y 0).val
    have hy : (y 0).val < 1 := (y 0).isLt
    omega
  · show (y 2).val = win0_2.index t (2 : Fin 3) * 4096 + 1 * (y 2).val
    omega

/-- So the output array ends holding the distances: batch b's block is written back at grid point 16·b + 15. -/
theorem final (c : Dev nD) : (dats m 0 c).arrAt 2 cfg0.N = dists (cp m c) (pt m c) :=
  (dats m 0 c).arrAt_eq_of_cover 2 (dists (cp m c) (pt m c)) (flushed_eq m c) fun i => by
    have hi0 : (i 0).val < 8 := (i 0).isLt
    have hi1 : (i 1).val < 1 := (i 1).isLt
    have hi2 : (i 2).val < 4096 := (i 2).isLt
    have hNN : cfg0.N = 128 := N_0
    obtain ⟨t, ht⟩ : ∃ t : Fin cfg0.N, t.val = 16 * (i 0).val + 15 := ⟨⟨16 * (i 0).val + 15, by rw [hNN]; omega⟩, rfl⟩
    obtain ⟨-, -, -, -, -, -, e0, e1, e2⟩ := Blocks.index_facts t
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 1 ≤ (i 1).val ∧ (i 1).val < win0_2.index t (1 : Fin 3) * 1 + 1
      omega
    | ⟨2, _⟩ =>
      show win0_2.index t (2 : Fin 3) * 4096 ≤ (i 2).val ∧ (i 2).val < win0_2.index t (2 : Fin 3) * 4096 + 4096
      omega

/-- The mean of 8 · 4096 values as the program forms it: their sum from zero, divided by 32768. -/
def mean (x : S8x4096.Idx → EReal) : S_.Idx → EReal :=
  Host.divf (F := Ideal) (Host.reduceAdd (F := Ideal) x (constant (F := Ideal) S_ .f32 0x00000000#32) reducesTo_S8x4096_S_d0_1 h_S_)
    (constant (F := Ideal) S_ .f32 0x47000000#32)

/-- The kernel's result: the mean of the distances. -/
def result (c : Dev nD) : S_.Idx → EReal :=
  mean (shapeCast S8x4096 (dists (cp m c) (pt m c)) shapeCasts_S8x1x4096_S8x4096)

/-- The operations after the region, applied to the output array as the region leaves it. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v1)
      = dists (cp m c) (pt m c) :=
    (Pipeline.withArrays_arr spec0 launch0.win.arr_inj c _ _ 2).trans (final m c)
  rw [hw]
  rfl

/-- THE RUN, READ: every weakly fair execution of the program ends with its result at the mean of the distances and
    its two argument arrays unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.KValue

end
-- ==== Proof.Bridge.lean ====
/-
  The two programs compute one function of the two clouds.

  The reference ends with the distances as an [8, 4096] array, the kernel's program with the same distances as an
  [8, 1, 4096] array whose unit axis it then drops; both then take the same mean: the sum from zero divided by 32768.
-/
import proofs.«118119_j20409684590743_2_alg».proof.Proof.RefSide
import proofs.«118119_j20409684590743_2_alg».proof.Proof.KernelValue

noncomputable section

open Idealize.ShloMosaic Idealize.ShloMosaic.ValueIdx

namespace Cert.Bridge

open Cert.Nearest

/-- The distances with the unit axis dropped are the reference's minima over the larger cloud. -/
theorem rows_agree (cp : Cloud 8192) (pt : Cloud 4096) :
    Cert.ReferenceIdeal.Read.val_main_v17 (F := Ideal) cp pt
      = shapeCast Cert.KernelIdeal.S8x4096 (Cert.KernelIdeal.KValue.dists cp pt) Cert.KernelIdeal.Facts₀.shapeCasts_S8x1x4096_S8x4096 := by
  funext i
  obtain ⟨b, p, rfl⟩ : ∃ (b : Fin 8) (p : Fin 4096), i = ix2 b p := ⟨i 0, i 1, eq_ix2 i⟩
  rw [Cert.ReferenceIdeal.RefValue.rows_eq]
  refine Eq.symm ((shapeCast_apply (Cert.KernelIdeal.KValue.dists cp pt) _ (ix2 b p) (ix3 b (0 : Fin 1) p) (by
    rw [Shape.rowMajor_val_three, Shape.rowMajor_val_two]
    show (b.val * 1 + 0) * 4096 + p.val = b.val * 4096 + p.val
    omega)).trans ?_)
  rfl

/-- The reference's result is the mean of the distances, as the kernel's program forms it. -/
theorem result_agree (cp : Cloud 8192) (pt : Cloud 4096) :
    Cert.ReferenceIdeal.Read.val_main_v19 (F := Ideal) cp pt
      = Cert.KernelIdeal.KValue.mean
          (shapeCast Cert.KernelIdeal.S8x4096 (Cert.KernelIdeal.KValue.dists cp pt) Cert.KernelIdeal.Facts₀.shapeCasts_S8x1x4096_S8x4096) := by
  rw [← rows_agree]
  rfl

end Cert.Bridge

end
-- ==== Proof.lean ====
/-
  The mean distance from each point of one cloud to the nearest point of another: a tiled kernel against its
  plain reference, equal on the extended reals.

  Both programs take a cloud of 8192 points and a cloud of 4096 points per batch, 8 batches, three coordinates per
  point, and return the mean over all batches and all points of the smaller cloud of the distance to the nearest point
  of the larger one, the squared distance taken in the expanded form |p|² + |c|² − 2·⟨p, c⟩.  The reference clips and
  roots every squared distance and then takes the minimum over the larger cloud.  The kernel walks the larger cloud
  in 16 tiles of 512 points, keeps a running minimum of the squared distances across the tiles, and clips and roots
  once, after the last tile.  Clipping at zero and rooting is monotone and fixes +∞, so it commutes with the minimum;
  and the minimum over the 16 tiles' minima is the minimum over all 8192 points.  The cross term ⟨p, c⟩ is a sum over
  the three coordinates on both sides, accumulated from zero in the kernel.  No finiteness of the inputs is used.

  The modules: NearestSpec (the function and the two laws), Steps (the running minimum tile by tile), RefSide (the
  reference read index by index), Payload (the kernel's arithmetic at an element), Pieces (what one run of the body
  leaves in the output block), Blocks (where the input blocks sit in the clouds), Accum (the output block after every
  grid point), KernelValue (the output array and the program's result), Bridge (the two results are one function).
-/
import proofs.«118119_j20409684590743_2_alg».proof.Defs
import proofs.«118119_j20409684590743_2_alg».proof.Proof.Gen.Kernel
import proofs.«118119_j20409684590743_2_alg».proof.Proof.Gen.Kernel.Frame
import proofs.«118119_j20409684590743_2_alg».proof.Proof.Gen.KernelIdeal
import proofs.«118119_j20409684590743_2_alg».proof.Proof.Gen.KernelIdeal.Frame
import proofs.«118119_j20409684590743_2_alg».proof.Proof.Gen.ReferenceIdeal
import proofs.«118119_j20409684590743_2_alg».proof.Proof.Gen.ReferenceIdeal.Run
import proofs.«118119_j20409684590743_2_alg».proof.Proof.Gen.ReferenceIdeal.Read
import proofs.«118119_j20409684590743_2_alg».proof.Proof.Gen.Pre_finite_inputs
import proofs.«118119_j20409684590743_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's program ends at the mean of the distances to the nearest points, and the
    reference, from arguments that agree, at the same value. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v19_eq]
  exact Cert.Bridge.result_agree _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
